-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x320000 : Shape := ⟨2, ![2, 320000]⟩
abbrev S100000 : Shape := ⟨1, ![100000]⟩
abbrev S256x256 : Shape := ⟨2, ![256, 256]⟩
abbrev S256 : Shape := ⟨1, ![256]⟩
abbrev S1 : Shape := ⟨1, ![1]⟩
abbrev S256x1 : Shape := ⟨2, ![256, 1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S1 : S_.BroadcastsInDim S1 (![] : Fin 0 → Fin S1.rank)
  reducesTo_S1_S_d0 : S1.ReducesTo [0] S_
  bcast_S_S256x1 : S_.BroadcastsInDim S256x1 (![] : Fin 0 → Fin S256x1.rank)
  reducesTo_S256x1_S_d0_1 : S256x1.ReducesTo [0, 1] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg9 : FVec F S256x256 .f32) (main_arg10 : FVec F S1 .f32) (main_arg11 : FVec F S256x1 .f32) (main_arg12 : FVec F S1 .f32) (main_v33 : IVec S_ 1) : IVec S_ 1 :=
  let main_v34 : FVec F S256x256 .f32 := Host.absf main_arg9
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S256x1 .f32 := Host.absf main_arg11
  let main_cst_16 : FVec F S_ .f32 := constant S_ .f32 0x7F800000#32
  let main_v45 : FVec F S256x1 .f32 := broadcastInDim S256x1 ![] bcast_S_S256x1 main_cst_16
  let main_v46 : IVec S256x1 1 := cmpf .olt main_v44 main_v45
  let main_c_17 : IVec S_ 1 := constantI S_ 1 1#1
  let main_v47 : IVec S_ 1 := (fun x v => Host.reduce IntOp.andi x v reducesTo_S256x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg6 : FVec F S1 .f32) (main_arg7 : FVec F S256x256 .f32) (main_arg8 : FVec F S256 .f32) (main_arg9 : FVec F S256x256 .f32) (main_arg10 : FVec F S1 .f32) (main_arg11 : FVec F S256x1 .f32) (main_arg12 : FVec F S1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S1 .f32 := Host.absf main_arg6
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x256 .f32) (main_arg1 : IVec S2x320000 32) (main_arg2 : IVec S100000 32) (main_arg3 : FVec F S256x256 .f32) (main_arg4 : FVec F S256 .f32) (main_arg5 : FVec F S256x256 .f32) (main_arg6 : FVec F S1 .f32) (main_arg7 : FVec F S256x256 .f32) (main_arg8 : FVec F S256 .f32) (main_arg9 : FVec F S256x256 .f32) (main_arg10 : FVec F S1 .f32) (main_arg11 : FVec F S256x1 .f32) (main_arg12 : FVec F S1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_arg9 main_arg10 main_arg11 main_arg12 main_v13 main_v16
-- ==== Kernel.lean ====
abbrev S100000x256 : Shape := ⟨2, ![100000, 256]⟩
abbrev S2x320000 : Shape := ⟨2, ![2, 320000]⟩
abbrev S100000 : Shape := ⟨1, ![100000]⟩
abbrev S256x256 : Shape := ⟨2, ![256, 256]⟩
abbrev S256 : Shape := ⟨1, ![256]⟩
abbrev S1 : Shape := ⟨1, ![1]⟩
abbrev S256x1 : Shape := ⟨2, ![256, 1]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x256 : Shape := ⟨2, ![320000, 256]⟩
abbrev S1x256 : Shape := ⟨2, ![1, 256]⟩
abbrev S1x1 : Shape := ⟨2, ![1, 1]⟩
abbrev S5000x256 : Shape := ⟨2, ![5000, 256]⟩
abbrev S64x256 : Shape := ⟨2, ![64, 256]⟩
abbrev S100000x1 : Shape := ⟨2, ![100000, 1]⟩
abbrev S64x1 : Shape := ⟨2, ![64, 1]⟩

abbrev nBuf : Space → Nat
  | .hbm => 57
  | .vmem => 20
  | .smem => 0
  | _ => 0

abbrev bufTy : (tb : Table) → Fin (tcTables nBuf tb) → BufTy
  | .hbm, ⟨0, _⟩ => ⟨S100000x256, .f32⟩
  | .hbm, ⟨1, _⟩ => ⟨S2x320000, .i32⟩
  | .hbm, ⟨2, _⟩ => ⟨S100000, .i32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S1, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S1, .f32⟩
  | .hbm, ⟨11, _⟩ => ⟨S256x1, .f32⟩
  | .hbm, ⟨12, _⟩ => ⟨S1, .f32⟩
  | .hbm, ⟨13, _⟩ => ⟨S1x320000, .i32⟩
  | .hbm, ⟨14, _⟩ => ⟨S320000, .i32⟩
  | .hbm, ⟨15, _⟩ => ⟨S1x320000, .i32⟩
  | .hbm, ⟨16, _⟩ => ⟨S320000, .i32⟩
  | .hbm, ⟨17, _⟩ => ⟨S_, .i32⟩
  | .hbm, ⟨18, _⟩ => ⟨S320000, .i32⟩
  | .hbm, ⟨19, _⟩ => ⟨S320000, .i1⟩
  | .hbm, ⟨20, _⟩ => ⟨S_, .i32⟩
  | .hbm, ⟨21, _⟩ => ⟨S320000, .i32⟩
  | .hbm, ⟨22, _⟩ => ⟨S320000, .i32⟩
  | .hbm, ⟨23, _⟩ => ⟨S320000, .i32⟩
  | .hbm, ⟨24, _⟩ => ⟨S320000x1, .i32⟩
  | .hbm, ⟨25, _⟩ => ⟨S320000x256, .f32⟩
  | .hbm, ⟨26, _⟩ => ⟨S_, .f32⟩
  | .hbm, ⟨27, _⟩ => ⟨S100000x256, .f32⟩
  | .hbm, ⟨28, _⟩ => ⟨S320000x1, .i32⟩
  | .hbm, ⟨29, _⟩ => ⟨S100000x256, .f32⟩
  | .hbm, ⟨30, _⟩ => ⟨S1x256, .f32⟩
  | .hbm, ⟨31, _⟩ => ⟨S1x1, .f32⟩
  | .hbm, ⟨32, _⟩ => ⟨S100000x256, .f32⟩
  | .hbm, ⟨33, _⟩ => ⟨S_, .i32⟩
  | .hbm, ⟨34, _⟩ => ⟨S320000, .i32⟩
  | .hbm, ⟨35, _⟩ => ⟨S320000, .i1⟩
  | .hbm, ⟨36, _⟩ => ⟨S_, .i32⟩
  | .hbm, ⟨37, _⟩ => ⟨S320000, .i32⟩
  | .hbm, ⟨38, _⟩ => ⟨S320000, .i32⟩
  | .hbm, ⟨39, _⟩ => ⟨S320000, .i32⟩
  | .hbm, ⟨40, _⟩ => ⟨S320000x1, .i32⟩
  | .hbm, ⟨41, _⟩ => ⟨S320000x256, .f32⟩
  | .hbm, ⟨42, _⟩ => ⟨S_, .f32⟩
  | .hbm, ⟨43, _⟩ => ⟨S100000x256, .f32⟩
  | .hbm, ⟨44, _⟩ => ⟨S320000x1, .i32⟩
  | .hbm, ⟨45, _⟩ => ⟨S100000x256, .f32⟩
  | .hbm, ⟨46, _⟩ => ⟨S1x256, .f32⟩
  | .hbm, ⟨47, _⟩ => ⟨S1x1, .f32⟩
  | .hbm, ⟨48, _⟩ => ⟨S100000x256, .f32⟩
  | .hbm, ⟨49, _⟩ => ⟨S_, .f32⟩
  | .hbm, ⟨50, _⟩ => ⟨S64x256, .f32⟩
  | .hbm, ⟨51, _⟩ => ⟨S100000x1, .i32⟩
  | .hbm, ⟨52, _⟩ => ⟨S64x256, .f32⟩
  | .hbm, ⟨53, _⟩ => ⟨S64x1, .f32⟩
  | .hbm, ⟨54, _⟩ => ⟨S1x1, .f32⟩
  | .hbm, ⟨55, _⟩ => ⟨S64x1, .f32⟩
  | .hbm, ⟨56, _⟩ => ⟨S64x1, .f32⟩
  | .local _ .vmem, ⟨0, _⟩ => ⟨S5000x256, .f32⟩
  | .local _ .vmem, ⟨1, _⟩ => ⟨S5000x256, .f32⟩
  | .local _ .vmem, ⟨2, _⟩ => ⟨S5000x256, .f32⟩
  | .local _ .vmem, ⟨3, _⟩ => ⟨S5000x256, .f32⟩
  | .local _ .vmem, ⟨4, _⟩ => ⟨S256x256, .f32⟩
  | .local _ .vmem, ⟨5, _⟩ => ⟨S1x256, .f32⟩
  | .local _ .vmem, ⟨6, _⟩ => ⟨S256x256, .f32⟩
  | .local _ .vmem, ⟨7, _⟩ => ⟨S1x1, .f32⟩
  | .local _ .vmem, ⟨8, _⟩ => ⟨S5000x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S5000x256, .f32⟩
  | .local _ .vmem, ⟨13, _⟩ => ⟨S5000x256, .f32⟩
  | .local _ .vmem, ⟨14, _⟩ => ⟨S256x256, .f32⟩
  | .local _ .vmem, ⟨15, _⟩ => ⟨S1x256, .f32⟩
  | .local _ .vmem, ⟨16, _⟩ => ⟨S256x256, .f32⟩
  | .local _ .vmem, ⟨17, _⟩ => ⟨S1x1, .f32⟩
  | .local _ .vmem, ⟨18, _⟩ => ⟨S5000x256, .f32⟩
  | .local _ .vmem, ⟨19, _⟩ => ⟨S5000x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_1 : Ref sig .tc := ⟨.hbm, 33, rfl⟩
abbrev main_v17 : Ref sig .tc := ⟨.hbm, 34, rfl⟩
abbrev main_v18 : Ref sig .tc := ⟨.hbm, 35, rfl⟩
abbrev main_c_2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_4 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S100000x256 : S_.BroadcastsInDim S100000x256 (![] : Fin 0 → Fin S100000x256.rank)
  shapeCasts_S256_S1x256 : S256.ShapeCasts S1x256
  shapeCasts_S1_S1x1 : S1.ShapeCasts S1x1
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  bcast_S_S64x256 : S_.BroadcastsInDim S64x256 (![] : Fin 0 → Fin S64x256.rank)
  bcast_S100000_S100000x1_0 : S100000.BroadcastsInDim S100000x1 (![0] : Fin 1 → Fin S100000x1.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  gather_S100000x256_S320000x1_S320000x256_1_0_n_n_0_1_1256_wf : GatherDims.WF S100000x256 S320000x1 S320000x256 [1] [0] [] [0] [] 1 ![1, 256]
  scatter_S100000x256_S320000x1_S320000x256_1_0_0_1_wf : ScatterDims.WF S100000x256 S320000x1 S320000x256 [1] [0] [0] 1
  dot_S5000x256_S256x256_S5000x256_1_0_0_1_n_n_wf : DotDims.WF S5000x256 S256x256 S5000x256 [1] [0] [0] [1] [] []
  scatter_S64x256_S100000x1_S100000x256_1_0_0_1_wf : ScatterDims.WF S64x256 S100000x1 S100000x256 [1] [0] [0] 1
  dot_S64x256_S256x1_S64x1_1_0_0_1_n_n_wf : DotDims.WF S64x256 S256x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x256.size a ≤ S100000x256.size a
  hwx0_1 : ∀ i : grid0.Coords, EltTy.bits .f32 = 32 ∨ (Rect.block (s := S100000x256) S5000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x256.size a ≤ S100000x256.size a
  hwx0_6 : ∀ i : grid0.Coords, EltTy.bits .f32 = 32 ∨ (Rect.block (s := S100000x256) S5000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S100000x256.size a
  hwx1_0 : ∀ i : grid1.Coords, EltTy.bits .f32 = 32 ∨ (Rect.block (s := S100000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x256.size a ≤ S100000x256.size a
  hwx1_1 : ∀ i : grid1.Coords, EltTy.bits .f32 = 32 ∨ (Rect.block (s := S100000x256) S5000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x256.size a ≤ S100000x256.size a
  hwx1_6 : ∀ i : grid1.Coords, EltTy.bits .f32 = 32 ∨ (Rect.block (s := S100000x256) S5000x256.size (cc1_transform_6 i) (hinb1_6 i)).WholeWords (EltTy.packing .f32)

variable [Facts₀]

def gather_S100000x256_S320000x1_S320000x256_1_0_n_n_0_1_1256 : GatherDims S100000x256 S320000x1 S320000x256 where
  offsetDims := [1]
  collapsedSliceDims := [0]
  operandBatchingDims := []
  startIndicesBatchingDims := []
  startIndexMap := [0]
  indexVectorDim := 1
  sliceSizes := ![1, 256]
  wf := gather_S100000x256_S320000x1_S320000x256_1_0_n_n_0_1_1256_wf
def scatter_S100000x256_S320000x1_S320000x256_1_0_0_1 : ScatterDims S100000x256 S320000x1 S320000x256 where
  updateWindowDims := [1]
  insertedWindowDims := [0]
  scatterDimsToOperandDims := [0]
  indexVectorDim := 1
  wf := scatter_S100000x256_S320000x1_S320000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def scatter_S64x256_S100000x1_S100000x256_1_0_0_1 : ScatterDims S64x256 S100000x1 S100000x256 where
  updateWindowDims := [1]
  insertedWindowDims := [0]
  scatterDimsToOperandDims := [0]
  indexVectorDim := 1
  wf := scatter_S64x256_S100000x1_S100000x256_1_0_0_1_wf
def dot_S64x256_S256x1_S64x1_1_0_0_1_n_n : DotDims S64x256 S256x1 S64x1 where
  lhsContracting := [1]
  rhsContracting := [0]
  lhsNonContracting := [0]
  rhsNonContracting := [1]
  lhsBatch := []
  rhsBatch := []
  wf := dot_S64x256_S256x1_S64x1_1_0_0_1_n_n_wf

abbrev win0_0 : Pipeline.Window sig grid0 :=
  Pipeline.Window.ofSpec (Memref.whole main_v13) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S5000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v26) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S5000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S5000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x320000 : Shape := ⟨2, ![2, 320000]⟩
abbrev S100000 : Shape := ⟨1, ![100000]⟩
abbrev S256x256 : Shape := ⟨2, ![256, 256]⟩
abbrev S256 : Shape := ⟨1, ![256]⟩
abbrev S1 : Shape := ⟨1, ![1]⟩
abbrev S256x1 : Shape := ⟨2, ![256, 1]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x256 : Shape := ⟨2, ![320000, 256]⟩
abbrev S1x256 : Shape := ⟨2, ![1, 256]⟩
abbrev S1x1 : Shape := ⟨2, ![1, 1]⟩
abbrev S64x256 : Shape := ⟨2, ![64, 256]⟩
abbrev S100000x1 : Shape := ⟨2, ![100000, 1]⟩
abbrev S64x1 : Shape := ⟨2, ![64, 1]⟩

abbrev nBuf : Space → Nat
  | .hbm => 77
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x320000, .i32⟩
  | .hbm, ⟨2, _⟩ => ⟨S100000, .i32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S1, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S1, .f32⟩
  | .hbm, ⟨11, _⟩ => ⟨S256x1, .f32⟩
  | .hbm, ⟨12, _⟩ => ⟨S1, .f32⟩
  | .hbm, ⟨13, _⟩ => ⟨S1x320000, .i32⟩
  | .hbm, ⟨14, _⟩ => ⟨S320000, .i32⟩
  | .hbm, ⟨15, _⟩ => ⟨S1x320000, .i32⟩
  | .hbm, ⟨16, _⟩ => ⟨S320000, .i32⟩
  | .hbm, ⟨17, _⟩ => ⟨S_, .i32⟩
  | .hbm, ⟨18, _⟩ => ⟨S320000, .i32⟩
  | .hbm, ⟨19, _⟩ => ⟨S320000, .i1⟩
  | .hbm, ⟨20, _⟩ => ⟨S_, .i32⟩
  | .hbm, ⟨21, _⟩ => ⟨S320000, .i32⟩
  | .hbm, ⟨22, _⟩ => ⟨S320000, .i32⟩
  | .hbm, ⟨23, _⟩ => ⟨S320000, .i32⟩
  | .hbm, ⟨24, _⟩ => ⟨S320000x1, .i32⟩
  | .hbm, ⟨25, _⟩ => ⟨S320000x256, .f32⟩
  | .hbm, ⟨26, _⟩ => ⟨S_, .f32⟩
  | .hbm, ⟨27, _⟩ => ⟨S100000x256, .f32⟩
  | .hbm, ⟨28, _⟩ => ⟨S320000x1, .i32⟩
  | .hbm, ⟨29, _⟩ => ⟨S100000x256, .f32⟩
  | .hbm, ⟨30, _⟩ => ⟨S100000x256, .f32⟩
  | .hbm, ⟨31, _⟩ => ⟨S1x256, .f32⟩
  | .hbm, ⟨32, _⟩ => ⟨S100000x256, .f32⟩
  | .hbm, ⟨33, _⟩ => ⟨S100000x256, .f32⟩
  | .hbm, ⟨34, _⟩ => ⟨S100000x256, .f32⟩
  | .hbm, ⟨35, _⟩ => ⟨S100000x256, .f32⟩
  | .hbm, ⟨36, _⟩ => ⟨S_, .f32⟩
  | .hbm, ⟨37, _⟩ => ⟨S100000x256, .f32⟩
  | .hbm, ⟨38, _⟩ => ⟨S100000x256, .i1⟩
  | .hbm, ⟨39, _⟩ => ⟨S1x1, .f32⟩
  | .hbm, ⟨40, _⟩ => ⟨S100000x256, .f32⟩
  | .hbm, ⟨41, _⟩ => ⟨S100000x256, .f32⟩
  | .hbm, ⟨42, _⟩ => ⟨S100000x256, .f32⟩
  | .hbm, ⟨43, _⟩ => ⟨S_, .i32⟩
  | .hbm, ⟨44, _⟩ => ⟨S320000, .i32⟩
  | .hbm, ⟨45, _⟩ => ⟨S320000, .i1⟩
  | .hbm, ⟨46, _⟩ => ⟨S_, .i32⟩
  | .hbm, ⟨47, _⟩ => ⟨S320000, .i32⟩
  | .hbm, ⟨48, _⟩ => ⟨S320000, .i32⟩
  | .hbm, ⟨49, _⟩ => ⟨S320000, .i32⟩
  | .hbm, ⟨50, _⟩ => ⟨S320000x1, .i32⟩
  | .hbm, ⟨51, _⟩ => ⟨S320000x256, .f32⟩
  | .hbm, ⟨52, _⟩ => ⟨S_, .f32⟩
  | .hbm, ⟨53, _⟩ => ⟨S100000x256, .f32⟩
  | .hbm, ⟨54, _⟩ => ⟨S320000x1, .i32⟩
  | .hbm, ⟨55, _⟩ => ⟨S100000x256, .f32⟩
  | .hbm, ⟨56, _⟩ => ⟨S100000x256, .f32⟩
  | .hbm, ⟨57, _⟩ => ⟨S1x256, .f32⟩
  | .hbm, ⟨58, _⟩ => ⟨S100000x256, .f32⟩
  | .hbm, ⟨59, _⟩ => ⟨S100000x256, .f32⟩
  | .hbm, ⟨60, _⟩ => ⟨S100000x256, .f32⟩
  | .hbm, ⟨61, _⟩ => ⟨S100000x256, .f32⟩
  | .hbm, ⟨62, _⟩ => ⟨S_, .f32⟩
  | .hbm, ⟨63, _⟩ => ⟨S100000x256, .f32⟩
  | .hbm, ⟨64, _⟩ => ⟨S100000x256, .i1⟩
  | .hbm, ⟨65, _⟩ => ⟨S1x1, .f32⟩
  | .hbm, ⟨66, _⟩ => ⟨S100000x256, .f32⟩
  | .hbm, ⟨67, _⟩ => ⟨S100000x256, .f32⟩
  | .hbm, ⟨68, _⟩ => ⟨S100000x256, .f32⟩
  | .hbm, ⟨69, _⟩ => ⟨S_, .f32⟩
  | .hbm, ⟨70, _⟩ => ⟨S64x256, .f32⟩
  | .hbm, ⟨71, _⟩ => ⟨S100000x1, .i32⟩
  | .hbm, ⟨72, _⟩ => ⟨S64x256, .f32⟩
  | .hbm, ⟨73, _⟩ => ⟨S64x1, .f32⟩
  | .hbm, ⟨74, _⟩ => ⟨S1x1, .f32⟩
  | .hbm, ⟨75, _⟩ => ⟨S64x1, .f32⟩
  | .hbm, ⟨76, _⟩ => ⟨S64x1, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_1 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_2 : Ref sig .tc := ⟨.hbm, 43, rfl⟩
abbrev main_v26 : Ref sig .tc := ⟨.hbm, 44, rfl⟩
abbrev main_v27 : Ref sig .tc := ⟨.hbm, 45, rfl⟩
abbrev main_c_3 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_4 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_5 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_6 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S100000x256 : S_.BroadcastsInDim S100000x256 (![] : Fin 0 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S1_S1x1_1 : S1.BroadcastsInDim S1x1 (![1] : Fin 1 → Fin S1x1.rank)
  bcast_S1x1_S100000x256_0_1 : S1x1.BroadcastsInDim S100000x256 (![0, 1] : Fin 2 → Fin S100000x256.rank)
  bcast_S_S64x256 : S_.BroadcastsInDim S64x256 (![] : Fin 0 → Fin S64x256.rank)
  bcast_S100000_S100000x1_0 : S100000.BroadcastsInDim S100000x1 (![0] : Fin 1 → Fin S100000x1.rank)
  bcast_S1x1_S64x1_0_1 : S1x1.BroadcastsInDim S64x1 (![0, 1] : Fin 2 → Fin S64x1.rank)
  gather_S100000x256_S320000x1_S320000x256_1_0_n_n_0_1_1256_wf : GatherDims.WF S100000x256 S320000x1 S320000x256 [1] [0] [] [0] [] 1 ![1, 256]
  scatter_S100000x256_S320000x1_S320000x256_1_0_0_1_wf : ScatterDims.WF S100000x256 S320000x1 S320000x256 [1] [0] [0] 1
  dot_S100000x256_S256x256_S100000x256_1_0_0_1_n_n_wf : DotDims.WF S100000x256 S256x256 S100000x256 [1] [0] [0] [1] [] []
  scatter_S64x256_S100000x1_S100000x256_1_0_0_1_wf : ScatterDims.WF S64x256 S100000x1 S100000x256 [1] [0] [0] 1
  dot_S64x256_S256x1_S64x1_1_0_0_1_n_n_wf : DotDims.WF S64x256 S256x1 S64x1 [1] [0] [0] [1] [] []

variable [Facts₀]

def gather_S100000x256_S320000x1_S320000x256_1_0_n_n_0_1_1256 : GatherDims S100000x256 S320000x1 S320000x256 where
  offsetDims := [1]
  collapsedSliceDims := [0]
  operandBatchingDims := []
  startIndicesBatchingDims := []
  startIndexMap := [0]
  indexVectorDim := 1
  sliceSizes := ![1, 256]
  wf := gather_S100000x256_S320000x1_S320000x256_1_0_n_n_0_1_1256_wf
def scatter_S100000x256_S320000x1_S320000x256_1_0_0_1 : ScatterDims S100000x256 S320000x1 S320000x256 where
  updateWindowDims := [1]
  insertedWindowDims := [0]
  scatterDimsToOperandDims := [0]
  indexVectorDim := 1
  wf := scatter_S100000x256_S320000x1_S320000x256_1_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def scatter_S64x256_S100000x1_S100000x256_1_0_0_1 : ScatterDims S64x256 S100000x1 S100000x256 where
  updateWindowDims := [1]
  insertedWindowDims := [0]
  scatterDimsToOperandDims := [0]
  indexVectorDim := 1
  wf := scatter_S64x256_S100000x1_S100000x256_1_0_0_1_wf
def dot_S64x256_S256x1_S64x1_1_0_0_1_n_n : DotDims S64x256 S256x1 S64x1 where
  lhsContracting := [1]
  rhsContracting := [0]
  lhsNonContracting := [0]
  rhsNonContracting := [1]
  lhsBatch := []
  rhsBatch := []
  wf := dot_S64x256_S256x1_S64x1_1_0_0_1_n_n_wf

class Facts : Prop extends Facts₀ where

variable [Facts]
-- ==== Proof.KernelRun.lean ====
/-
  The idealized kernel's run, with every buffer named.

  @main is five segments: a stretch of host operations, the first call, a second stretch, the second call, a last
  stretch. The contents of the TensorCore's buffers at each boundary are a fold through those segments from the launch
  memory. Every weakly fair execution terminates, and in every final state each unscoped buffer holds the fold's last
  contents; in particular the result buffer does, and each argument holds what it was launched with.
-/
import proofs.«103975_j10557029614296_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates, nothing faulting, and in
    every final state each unscoped buffer of each core holds the last contents of the fold through @main's
    segments. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- The result buffer ends at the fold's last contents, and each argument as launched. -/
theorem run_result : θ_run defs (onTc (τ := τ) (main (F := F))) ⟨m, fun _ => 0, ρ⟩ (fun r => ∀ c : Dev nD,
      r.2.mem ((c.tc : Thread nD τ).loc main_v36) = W5 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
      ⟨h c _ (mem_uc main_v36 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c)⟩)
    (run_all m ρ)

end Cert.KernelIdeal.Run

end
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.LayerCell.lean ====
/-
  One graph-convolution layer with its parametric rectifier, as a function on the extended reals, entry by entry.

  For a node p and an output channel q the layer first forms

      o(p, q) = (Σ_k A(p, k) · W(k, q) + b(q)) + Σ_k X(p, k) · W'(k, q),

  A the neighbour aggregate, X the node features, in exactly this association, and then returns o where o ≥ 0 and
  a · o elsewhere. Nothing here depends on a program: the two programs are each shown to compute this function.
-/
import Idealize.ShloMosaic.Lib.ValueIdx
import Idealize.ShloMosaic.PureOps.Ideal

noncomputable section

namespace Cert.Spec

open Idealize.ShloMosaic Idealize.ShloMosaic.ValueIdx

/-- The rectifier with slope a: o where o ≥ 0, a · o elsewhere (the comparison and the choice are the float
    operations read at the extended reals, so that no case analysis on o is ever needed). -/
def act (a o : EReal) : EReal :=
  Scalar.select (FloatOps.cmpf (F := Ideal) (φ := .f32) .oge o (FloatOps.ofBits (F := Ideal) .f32 0x00000000#32)) o
    (FloatOps.mulf (F := Ideal) (φ := .f32) a o)

/-- One output entry: row p of the aggregate and of the features against column q of the two weight matrices, the
    bias entry b(q) added between the two products, then the rectifier. -/
def cell (rowA rowX : Fin 256 → EReal) (W W' : (⟨2, ![256, 256]⟩ : Shape).Idx → EReal) (q : Fin 256) (bq a : EReal) :
    EReal :=
  act a ((∑ k : Fin 256, rowA k * W (ix2 k q) + bq) + ∑ k : Fin 256, rowX k * W' (ix2 k q))

/-- The layer over R rows: entry (p, q) is the cell of row p and column q. -/
def layer (R : Nat) (A X : (⟨2, ![R, 256]⟩ : Shape).Idx → EReal) (W W' : (⟨2, ![256, 256]⟩ : Shape).Idx → EReal)
    (b : Fin 256 → EReal) (a : EReal) : (⟨2, ![R, 256]⟩ : Shape).Idx → EReal :=
  fun i => cell (fun k => A (ix2 (i 0) k)) (fun k => X (ix2 (i 0) k)) W W' (i 1) (b (i 1)) a

/-- The layer at an index written by its coordinates. -/
theorem layer_apply (R : Nat) (A X : (⟨2, ![R, 256]⟩ : Shape).Idx → EReal) (W W' : (⟨2, ![256, 256]⟩ : Shape).Idx → EReal)
    (b : Fin 256 → EReal) (a : EReal) (p : Fin R) (q : Fin 256) :
    layer R A X W W' b a (ix2 p q) = cell (fun k => A (ix2 p k)) (fun k => X (ix2 p k)) W W' q (b q) a := rfl

end Cert.Spec

end
-- ==== Proof.LibRowLayout.lean ====
/-
  A row vector's layout operations read at coordinates. Independent of any program.

  A vector [b] re-laid as the row [1, b] keeps its entries in order, so the row at (0, q) is the vector at q; a row
  [1, b] broadcast down a rows repeats it, so the result at (p, q) is the row at (0, q); and the one entry of a [1, 1]
  array extracted at position (0, 0) is the array at (0, 0).
-/
import Idealize.ShloMosaic.Lib.ValueIdx
import Idealize.ShloMosaic.Lib.Pipeline.Value

noncomputable section

namespace Cert.Lib

open Idealize.ShloMosaic Idealize.ShloMosaic.ValueIdx

/-- A vector [b] shape-cast to the row [1, b], read at (0, q), is the vector at q (any b; with b = 1 this is a [1]
    array re-laid as [1, 1]). -/
theorem vecToRow_apply {α : Type} {b : Nat} (x : (⟨1, ![b]⟩ : Shape).Idx → α)
    (h : (⟨1, ![b]⟩ : Shape).ShapeCasts ⟨2, ![1, b]⟩) (q : Fin b) :
    shapeCast ⟨2, ![1, b]⟩ x h (ix2 0 q) = x (ix1 q) :=
  shapeCast_apply x h (ix2 0 q) (ix1 q) (by
    rw [Shape.rowMajor_val_two, Shape.rowMajor_val_one]; show q.val = 0 * b + q.val; omega)

/-- A row [1, b] broadcast to [a, b], read at (p, q), is the row at (0, q). -/
theorem rowBroadcast_apply {α : Type} {a b : Nat} (x : (⟨2, ![1, b]⟩ : Shape).Idx → α)
    (h : (⟨2, ![1, b]⟩ : Shape).Broadcasts ⟨2, ![a, b]⟩) (p : Fin a) (q : Fin b) :
    broadcastTo ⟨2, ![a, b]⟩ x h (ix2 p q) = x (ix2 0 q) :=
  broadcastTo_apply x h (ix2 p q) (ix2 0 q) (fun d => by
    match d with
    | ⟨0, _⟩ => show (0 : Nat) = if (1 : Nat) = 1 then 0 else p.val; rw [if_pos rfl]
    | ⟨1, _⟩ => show q.val = if b = 1 then 0 else q.val; have := q.isLt; split <;> omega)

/-- The entry of a [1, 1] array extracted at position (0, 0) is the array at (0, 0). -/
theorem extract_one_one {α : Type} (x : (⟨2, ![1, 1]⟩ : Shape).Idx → α)
    (h : ∀ d, (![0, 0] : Fin 2 → Nat) d < (⟨2, ![1, 1]⟩ : Shape).size d) :
    extractAt ![0, 0] x h = x (ix2 0 0) :=
  congrArg x (funext fun d => Fin.ext (by match d with | ⟨0, _⟩ => rfl | ⟨1, _⟩ => rfl))

end Cert.Lib

end
-- ==== Proof.KernelCell.lean ====
/-
  The kernel body's stored value, read at one position (p, q) of its 5000 × 256 block.

  The body rounds its four matrix operands to bf16 (the identity on extended reals), multiplies the aggregate block
  by the first weight matrix into a zero accumulator, adds the bias row broadcast down the rows, adds the product of
  the feature block with the second weight matrix, and applies the rectifier with the slope read from the 1 × 1
  block. At (p, q) that is the layer's cell of row p of the two blocks and column q of the two weight matrices.
-/
import proofs.«103975_j10557029614296_1_alg».proof.Proof.Gen.KernelIdeal.Skeleton
import proofs.«103975_j10557029614296_1_alg».proof.Proof.LibPlainDot
import proofs.«103975_j10557029614296_1_alg».proof.Proof.LayerCell
import proofs.«103975_j10557029614296_1_alg».proof.Proof.LibRowLayout
import Idealize.ShloMosaic.Lib.Pipeline.Value

noncomputable section

namespace Cert.KernelIdeal.Body

open Idealize.ShloMosaic Idealize.ShloMosaic.ValueIdx Cert.KernelIdeal Cert.KernelIdeal.Gen Cert.Spec

/-- The bias row [1, 256], cast to its own shape and broadcast down 5000 rows, read at (p, q) is its entry (0, q). -/
theorem bias_row (x3 : Vec Ideal S1x256 .f32) (hc : S1x256.ShapeCasts S1x256) (hb : S1x256.Broadcasts S5000x256)
    (p : Fin 5000) (q : Fin 256) :
    broadcastTo S5000x256 (shapeCast S1x256 x3 hc) hb (ix2 p q) = x3 (ix2 0 q) := by
  rw [shapeCast_self]
  exact Cert.Lib.rowBroadcast_apply x3 hb p q

/-- The slope: the one entry of the 1 × 1 block. -/
theorem slope_entry (x5 : Vec Ideal S1x1 .f32) (h : ∀ a, (![0, 0] : Fin 2 → Nat) a < S1x1.size a) :
    extractAt ![0, 0] x5 h = x5 (ix2 0 0) :=
  Cert.Lib.extract_one_one x5 h

/-- The block product into a zero accumulator at (p, q): the sum over the 256 shared positions. -/
theorem dot_block (l : FVec Ideal S5000x256 .bf16) (r : FVec Ideal S256x256 .bf16) (p : Fin 5000) (q : Fin 256) :
    matmul dot_S5000x256_S256x256_S5000x256_1_0_0_1_n_n none l r (constant (F := Ideal) S5000x256 .f32 0x00000000#32) (ix2 p q)
      = ∑ k : Fin 256, l (ix2 p k) * r (ix2 k q) :=
  Cert.Lib.matmul_zero_apply dot_S5000x256_S256x256_S5000x256_1_0_0_1_n_n_wf none l r p q

/-- THE FIRST CALL'S STORED VALUE at (p, q) is the layer's cell. -/
theorem pay0_apply (x0 x1 : Vec Ideal S5000x256 .f32) (x2 x4 : Vec Ideal S256x256 .f32) (x3 : Vec Ideal S1x256 .f32)
    (x5 : Vec Ideal S1x1 .f32) (p : Fin 5000) (q : Fin 256) :
    k0_pay1 (F := Ideal) x0 x1 x2 x4 x3 x5 (ix2 p q)
      = cell (fun k => x0 (ix2 p k)) (fun k => x1 (ix2 p k)) x2 x4 q (x3 (ix2 0 q)) (x5 (ix2 0 0)) := by
  unfold k0_pay1
  simp only [select_apply, cmpf_apply, mulf_apply, addf_apply, broadcast_apply]
  rw [shapeCast_self, dot_block, dot_block, bias_row, slope_entry]
  rfl

/-- THE SECOND CALL'S STORED VALUE at (p, q) is the same cell: its body differs only by a cast of the feature block to
    its own shape. -/
theorem pay1_apply (x0 x1 : Vec Ideal S5000x256 .f32) (x2 x4 : Vec Ideal S256x256 .f32) (x3 : Vec Ideal S1x256 .f32)
    (x5 : Vec Ideal S1x1 .f32) (p : Fin 5000) (q : Fin 256) :
    k1_pay1 (F := Ideal) x0 x1 x2 x4 x3 x5 (ix2 p q)
      = cell (fun k => x0 (ix2 p k)) (fun k => x1 (ix2 p k)) x2 x4 q (x3 (ix2 0 q)) (x5 (ix2 0 0)) := by
  unfold k1_pay1
  simp only [select_apply, cmpf_apply, mulf_apply, addf_apply, broadcast_apply]
  rw [shapeCast_self x0, shapeCast_self x1, dot_block, dot_block, bias_row, slope_entry]
  rfl

end Cert.KernelIdeal.Body

end
-- ==== Proof.Region0.lean ====
/-
  The first call's output array, whole: every entry of the 100000 × 256 result is the layer's cell of the arrays the
  call finds when it is entered.

  The grid has 20 points. At point t the aggregate, the features and the output are staged in blocks of 5000 rows,
  rows 5000·t … 5000·t + 4999; the two weight matrices, the bias row and the slope are staged whole at every point.
  So entry (p, q) of the block written back at point t is the cell of row 5000·t + p and column q, and since the 20
  output blocks tile the rows, the array after the call is the layer.
-/
import proofs.«103975_j10557029614296_1_alg».proof.Proof.Gen.KernelIdeal.Frame
import proofs.«103975_j10557029614296_1_alg».proof.Proof.KernelCell
import Idealize.ShloMosaic.Lib.Pipeline.Value

noncomputable section

open Idealize.ShloMosaic Idealize.ShloMosaic.TcCoe Idealize.SL.Sem
open Idealize.ShloMosaic.Pipeline (Dat)

namespace Cert.KernelIdeal.Region0

open Cert.KernelIdeal Cert.KernelIdeal.Gen Cert.Spec Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row-tiled windows (aggregate, features, output) sit at block (t, 0), the
    resident ones (weights, bias row, slope) at block (0, 0). -/
theorem idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The arrays the call finds, by window. -/
abbrev arrA (c : Dev nD) : S100000x256.Idx → EReal := V c (Pipeline.arrRef spec0 0)
abbrev arrX (c : Dev nD) : S100000x256.Idx → EReal := V c (Pipeline.arrRef spec0 1)
abbrev arrW (c : Dev nD) : S256x256.Idx → EReal := V c (Pipeline.arrRef spec0 2)
abbrev arrB (c : Dev nD) : S1x256.Idx → EReal := V c (Pipeline.arrRef spec0 3)
abbrev arrW' (c : Dev nD) : S256x256.Idx → EReal := V c (Pipeline.arrRef spec0 4)
abbrev arrS (c : Dev nD) : S1x1.Idx → EReal := V c (Pipeline.arrRef spec0 5)

/-- The aggregate's block at point t, entry (p, k): the array's entry (5000·t + p, k). -/
theorem blkA (c : Dev nD) (t : Fin cfg0.N) (x : S5000x256.Idx) (k : S100000x256.Idx)
    (hk0 : (k 0).val = 5000 * t.val + (x 0).val) (hk1 : (k 1).val = (x 1).val) :
    (iblk0 V c 0 t : Vec Ideal S5000x256 .f32) x = arrA V c k := by
  unfold iblk0
  rw [View.read_apply]
  show V c (Pipeline.arrRef spec0 0) _ = V c (Pipeline.arrRef spec0 0) _
  congr 1
  funext a
  apply Fin.ext
  obtain ⟨e0, e1, -⟩ := idx t
  match a with
  | ⟨0, _⟩ => show win0_0.index t 0 * 5000 + 1 * (x 0).val = (k 0).val; rw [e0, hk0]; omega
  | ⟨1, _⟩ => show win0_0.index t 1 * 256 + 1 * (x 1).val = (k 1).val; rw [e1, hk1]; omega

/-- The features' block at point t, entry (p, k): the array's entry (5000·t + p, k). -/
theorem blkX (c : Dev nD) (t : Fin cfg0.N) (x : S5000x256.Idx) (k : S100000x256.Idx)
    (hk0 : (k 0).val = 5000 * t.val + (x 0).val) (hk1 : (k 1).val = (x 1).val) :
    (iblk0 V c 1 t : Vec Ideal S5000x256 .f32) x = arrX V c k := by
  unfold iblk0
  rw [View.read_apply]
  show V c (Pipeline.arrRef spec0 1) _ = V c (Pipeline.arrRef spec0 1) _
  congr 1
  funext a
  apply Fin.ext
  obtain ⟨-, -, e0, e1, -⟩ := idx t
  match a with
  | ⟨0, _⟩ => show win0_1.index t 0 * 5000 + 1 * (x 0).val = (k 0).val; rw [e0, hk0]; omega
  | ⟨1, _⟩ => show win0_1.index t 1 * 256 + 1 * (x 1).val = (k 1).val; rw [e1, hk1]; omega

/-- The first weight matrix is staged whole at every point. -/
theorem blkW (c : Dev nD) (t : Fin cfg0.N) : (iblk0 V c 2 t : Vec Ideal S256x256 .f32) = arrW V c := by
  funext y
  unfold iblk0
  rw [View.read_apply]
  show V c (Pipeline.arrRef spec0 2) _ = V c (Pipeline.arrRef spec0 2) _
  congr 1
  funext a
  apply Fin.ext
  obtain ⟨-, -, -, -, e0, e1, -⟩ := idx t
  match a with
  | ⟨0, _⟩ => show win0_2.index t 0 * 256 + 1 * (y 0).val = (y 0).val; rw [e0]; omega
  | ⟨1, _⟩ => show win0_2.index t 1 * 256 + 1 * (y 1).val = (y 1).val; rw [e1]; omega

/-- The bias row is staged whole at every point. -/
theorem blkB (c : Dev nD) (t : Fin cfg0.N) : (iblk0 V c 3 t : Vec Ideal S1x256 .f32) = arrB V c := by
  funext y
  unfold iblk0
  rw [View.read_apply]
  show V c (Pipeline.arrRef spec0 3) _ = V c (Pipeline.arrRef spec0 3) _
  congr 1
  funext a
  apply Fin.ext
  obtain ⟨-, -, -, -, -, -, e0, e1, -⟩ := idx t
  match a with
  | ⟨0, _⟩ => show win0_3.index t 0 * 1 + 1 * (y 0).val = (y 0).val; rw [e0]; omega
  | ⟨1, _⟩ => show win0_3.index t 1 * 256 + 1 * (y 1).val = (y 1).val; rw [e1]; omega

/-- The second weight matrix is staged whole at every point. -/
theorem blkW' (c : Dev nD) (t : Fin cfg0.N) : (iblk0 V c 4 t : Vec Ideal S256x256 .f32) = arrW' V c := by
  funext y
  unfold iblk0
  rw [View.read_apply]
  show V c (Pipeline.arrRef spec0 4) _ = V c (Pipeline.arrRef spec0 4) _
  congr 1
  funext a
  apply Fin.ext
  obtain ⟨-, -, -, -, -, -, -, -, e0, e1, -⟩ := idx t
  match a with
  | ⟨0, _⟩ => show win0_4.index t 0 * 256 + 1 * (y 0).val = (y 0).val; rw [e0]; omega
  | ⟨1, _⟩ => show win0_4.index t 1 * 256 + 1 * (y 1).val = (y 1).val; rw [e1]; omega

/-- The slope's 1 × 1 array is staged whole at every point. -/
theorem blkS (c : Dev nD) (t : Fin cfg0.N) : (iblk0 V c 5 t : Vec Ideal S1x1 .f32) = arrS V c := by
  funext y
  unfold iblk0
  rw [View.read_apply]
  show V c (Pipeline.arrRef spec0 5) _ = V c (Pipeline.arrRef spec0 5) _
  congr 1
  funext a
  apply Fin.ext
  obtain ⟨-, -, -, -, -, -, -, -, -, -, e0, e1, -⟩ := idx t
  match a with
  | ⟨0, _⟩ => show win0_5.index t 0 * 1 + 1 * (y 0).val = (y 0).val; rw [e0]; omega
  | ⟨1, _⟩ => show win0_5.index t 1 * 1 + 1 * (y 1).val = (y 1).val; rw [e1]; omega

/-- THE OUTPUT ARRAY AS ONE FUNCTION of the arrays the call finds: the layer over all 100000 rows, with the bias read off
    the [1, 256] row and the slope off the [1, 1] array. -/
def G (c : Dev nD) : S100000x256.Idx → EReal :=
  layer 100000 (arrA V c) (arrX V c) (arrW V c) (arrW' V c) (fun q => arrB V c (ix2 0 q)) (arrS V c (ix2 0 0))

/-- Entry (p, q) of the output's block at point t is the array's entry (5000·t + p, q). -/
theorem emb_out (t : Fin cfg0.N) (p : Fin 5000) (q : Fin 256) (h : 5000 * t.val + p.val < 100000) :
    ((cfg0.win 6).blk t).view.emb (ix2 p q) = (ix2 ⟨5000 * t.val + p.val, h⟩ q : S100000x256.Idx) := by
  funext a
  apply Fin.ext
  obtain ⟨-, -, -, -, -, -, -, -, -, -, -, -, e0, e1⟩ := idx t
  match a with
  | ⟨0, _⟩ => show win0_6.index t 0 * 5000 + 1 * p.val = 5000 * t.val + p.val; rw [e0]; omega
  | ⟨1, _⟩ => show win0_6.index t 1 * 256 + 1 * q.val = q.val; rw [e1]; omega

/-- WHAT POINT t WRITES BACK is block t of the layer: the body's stored value at (p, q) is the cell of the staged
    blocks, and each staged block is the corresponding rows (or the whole) of its array. -/
theorem flushed (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero hz]
  simp only [View.ld_unit_zero (S := S5000x256) hz, View.ld_unit_zero (S := S256x256) hz,
    View.ld_unit_zero (S := S1x256) hz, View.ld_unit_zero (S := S1x1) hz]
  funext j
  obtain ⟨p, q, rfl⟩ : ∃ (p : Fin 5000) (q : Fin 256), j = ix2 p q := ⟨j 0, j 1, eq_ix2 j⟩
  have ht : t.val < 20 := lt_of_lt_of_eq t.isLt N_0
  have hp : 5000 * t.val + p.val < 100000 := by have := p.isLt; omega
  show k0_pay1 (F := Ideal) (iblk0 V c 0 t) (iblk0 V c 1 t) (iblk0 V c 2 t) (iblk0 V c 4 t) (iblk0 V c 3 t) (iblk0 V c 5 t) (ix2 p q)
      = G V c (((cfg0.win 6).blk t).view.emb (ix2 p q))
  rw [emb_out t p q hp]
  refine (Cert.KernelIdeal.Body.pay0_apply (iblk0 V c 0 t) (iblk0 V c 1 t) (iblk0 V c 2 t) (iblk0 V c 4 t) (iblk0 V c 3 t) (iblk0 V c 5 t) p q).trans ?_
  unfold G
  rw [layer_apply]
  have eA : (fun k : Fin 256 => (iblk0 V c 0 t : Vec Ideal S5000x256 .f32) (ix2 p k))
      = fun k => arrA V c (ix2 ⟨5000 * t.val + p.val, hp⟩ k) := funext fun k => blkA V c t (ix2 p k) _ rfl rfl
  have eX : (fun k : Fin 256 => (iblk0 V c 1 t : Vec Ideal S5000x256 .f32) (ix2 p k))
      = fun k => arrX V c (ix2 ⟨5000 * t.val + p.val, hp⟩ k) := funext fun k => blkX V c t (ix2 p k) _ rfl rfl
  rw [eA, eX, blkW V c t, blkW' V c t, blkB V c t, blkS V c t]

/-- An index of the output array is in point t's block iff each coordinate is in the block's range on its axis. -/
theorem mem_blk (t : Fin cfg0.N) (i : S100000x256.Idx) :
    i ∈ ((cfg0.win 6).blk t).view.set ↔ ∀ a : Fin 2, win0_6.index t a * S5000x256.size a ≤ (i a).val
      ∧ (i a).val < win0_6.index t a * S5000x256.size a + S5000x256.size a := by
  show i ∈ ((View.whole main_v16).slice (win0_6.rect t)).set ↔ _
  rw [View.set_slice_whole, Rect.mem_set_unit]
  exact Iff.rfl

/-- The 20 output blocks tile the array: row r lies in the block of point r / 5000. -/
theorem cover (i : S100000x256.Idx) :
    ∃ t : Fin cfg0.N, (cfg0.win 6).flush t = true ∧ i ∈ ((cfg0.win 6).blk t).view.set := by
  have h0 : (i 0).val < 100000 := (i 0).isLt
  have h1 : (i 1).val < 256 := (i 1).isLt
  have hN : (i 0).val / 5000 < cfg0.N := lt_of_lt_of_eq (by omega : (i 0).val / 5000 < 20) N_0.symm
  refine ⟨⟨(i 0).val / 5000, hN⟩, flush0_6 _, ?_⟩
  rw [mem_blk]
  obtain ⟨-, -, -, -, -, -, -, -, -, -, -, -, e0, e1⟩ := idx ⟨(i 0).val / 5000, hN⟩
  intro a
  match a with
  | ⟨0, _⟩ =>
    show win0_6.index ⟨(i 0).val / 5000, hN⟩ 0 * 5000 ≤ (i 0).val ∧ (i 0).val < win0_6.index ⟨(i 0).val / 5000, hN⟩ 0 * 5000 + 5000
    rw [e0]; show (i 0).val / 5000 * 5000 ≤ (i 0).val ∧ (i 0).val < (i 0).val / 5000 * 5000 + 5000; omega
  | ⟨1, _⟩ =>
    show win0_6.index ⟨(i 0).val / 5000, hN⟩ 1 * 256 ≤ (i 1).val ∧ (i 1).val < win0_6.index ⟨(i 0).val / 5000, hN⟩ 1 * 256 + 256
    rw [e1]; omega

/-- THE OUTPUT ARRAY after the first call is the layer of the arrays the call finds. -/
theorem final (c : Dev nD) : (dat0 V c).arrAt 6 cfg0.N = G V c :=
  (dat0 V c).arrAt_eq_of_cover 6 (G V c) (fun t _ => flushed V c t) cover

end Cert.KernelIdeal.Region0

end
-- ==== Proof.Region1.lean ====
/-
  The second call's output array, whole: every entry of the 100000 × 256 result is the layer's cell of the arrays the
  call finds when it is entered.

  The grid has 20 points. At point t the aggregate, the features and the output are staged in blocks of 5000 rows,
  rows 5000·t … 5000·t + 4999; the two weight matrices, the bias row and the slope are staged whole at every point.
  So entry (p, q) of the block written back at point t is the cell of row 5000·t + p and column q, and since the 20
  output blocks tile the rows, the array after the call is the layer.
-/
import proofs.«103975_j10557029614296_1_alg».proof.Proof.Gen.KernelIdeal.Frame
import proofs.«103975_j10557029614296_1_alg».proof.Proof.KernelCell
import Idealize.ShloMosaic.Lib.Pipeline.Value

noncomputable section

open Idealize.ShloMosaic Idealize.ShloMosaic.TcCoe Idealize.SL.Sem
open Idealize.ShloMosaic.Pipeline (Dat)

namespace Cert.KernelIdeal.Region1

open Cert.KernelIdeal Cert.KernelIdeal.Gen Cert.Spec Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row-tiled windows (aggregate, features, output) sit at block (t, 0), the
    resident ones (weights, bias row, slope) at block (0, 0). -/
theorem idx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The arrays the call finds, by window. -/
abbrev arrA (c : Dev nD) : S100000x256.Idx → EReal := V c (Pipeline.arrRef spec1 0)
abbrev arrX (c : Dev nD) : S100000x256.Idx → EReal := V c (Pipeline.arrRef spec1 1)
abbrev arrW (c : Dev nD) : S256x256.Idx → EReal := V c (Pipeline.arrRef spec1 2)
abbrev arrB (c : Dev nD) : S1x256.Idx → EReal := V c (Pipeline.arrRef spec1 3)
abbrev arrW' (c : Dev nD) : S256x256.Idx → EReal := V c (Pipeline.arrRef spec1 4)
abbrev arrS (c : Dev nD) : S1x1.Idx → EReal := V c (Pipeline.arrRef spec1 5)

/-- The aggregate's block at point t, entry (p, k): the array's entry (5000·t + p, k). -/
theorem blkA (c : Dev nD) (t : Fin cfg1.N) (x : S5000x256.Idx) (k : S100000x256.Idx)
    (hk0 : (k 0).val = 5000 * t.val + (x 0).val) (hk1 : (k 1).val = (x 1).val) :
    (iblk1 V c 0 t : Vec Ideal S5000x256 .f32) x = arrA V c k := by
  unfold iblk1
  rw [View.read_apply]
  show V c (Pipeline.arrRef spec1 0) _ = V c (Pipeline.arrRef spec1 0) _
  congr 1
  funext a
  apply Fin.ext
  obtain ⟨e0, e1, -⟩ := idx t
  match a with
  | ⟨0, _⟩ => show win1_0.index t 0 * 5000 + 1 * (x 0).val = (k 0).val; rw [e0, hk0]; omega
  | ⟨1, _⟩ => show win1_0.index t 1 * 256 + 1 * (x 1).val = (k 1).val; rw [e1, hk1]; omega

/-- The features' block at point t, entry (p, k): the array's entry (5000·t + p, k). -/
theorem blkX (c : Dev nD) (t : Fin cfg1.N) (x : S5000x256.Idx) (k : S100000x256.Idx)
    (hk0 : (k 0).val = 5000 * t.val + (x 0).val) (hk1 : (k 1).val = (x 1).val) :
    (iblk1 V c 1 t : Vec Ideal S5000x256 .f32) x = arrX V c k := by
  unfold iblk1
  rw [View.read_apply]
  show V c (Pipeline.arrRef spec1 1) _ = V c (Pipeline.arrRef spec1 1) _
  congr 1
  funext a
  apply Fin.ext
  obtain ⟨-, -, e0, e1, -⟩ := idx t
  match a with
  | ⟨0, _⟩ => show win1_1.index t 0 * 5000 + 1 * (x 0).val = (k 0).val; rw [e0, hk0]; omega
  | ⟨1, _⟩ => show win1_1.index t 1 * 256 + 1 * (x 1).val = (k 1).val; rw [e1, hk1]; omega

/-- The first weight matrix is staged whole at every point. -/
theorem blkW (c : Dev nD) (t : Fin cfg1.N) : (iblk1 V c 2 t : Vec Ideal S256x256 .f32) = arrW V c := by
  funext y
  unfold iblk1
  rw [View.read_apply]
  show V c (Pipeline.arrRef spec1 2) _ = V c (Pipeline.arrRef spec1 2) _
  congr 1
  funext a
  apply Fin.ext
  obtain ⟨-, -, -, -, e0, e1, -⟩ := idx t
  match a with
  | ⟨0, _⟩ => show win1_2.index t 0 * 256 + 1 * (y 0).val = (y 0).val; rw [e0]; omega
  | ⟨1, _⟩ => show win1_2.index t 1 * 256 + 1 * (y 1).val = (y 1).val; rw [e1]; omega

/-- The bias row is staged whole at every point. -/
theorem blkB (c : Dev nD) (t : Fin cfg1.N) : (iblk1 V c 3 t : Vec Ideal S1x256 .f32) = arrB V c := by
  funext y
  unfold iblk1
  rw [View.read_apply]
  show V c (Pipeline.arrRef spec1 3) _ = V c (Pipeline.arrRef spec1 3) _
  congr 1
  funext a
  apply Fin.ext
  obtain ⟨-, -, -, -, -, -, e0, e1, -⟩ := idx t
  match a with
  | ⟨0, _⟩ => show win1_3.index t 0 * 1 + 1 * (y 0).val = (y 0).val; rw [e0]; omega
  | ⟨1, _⟩ => show win1_3.index t 1 * 256 + 1 * (y 1).val = (y 1).val; rw [e1]; omega

/-- The second weight matrix is staged whole at every point. -/
theorem blkW' (c : Dev nD) (t : Fin cfg1.N) : (iblk1 V c 4 t : Vec Ideal S256x256 .f32) = arrW' V c := by
  funext y
  unfold iblk1
  rw [View.read_apply]
  show V c (Pipeline.arrRef spec1 4) _ = V c (Pipeline.arrRef spec1 4) _
  congr 1
  funext a
  apply Fin.ext
  obtain ⟨-, -, -, -, -, -, -, -, e0, e1, -⟩ := idx t
  match a with
  | ⟨0, _⟩ => show win1_4.index t 0 * 256 + 1 * (y 0).val = (y 0).val; rw [e0]; omega
  | ⟨1, _⟩ => show win1_4.index t 1 * 256 + 1 * (y 1).val = (y 1).val; rw [e1]; omega

/-- The slope's 1 × 1 array is staged whole at every point. -/
theorem blkS (c : Dev nD) (t : Fin cfg1.N) : (iblk1 V c 5 t : Vec Ideal S1x1 .f32) = arrS V c := by
  funext y
  unfold iblk1
  rw [View.read_apply]
  show V c (Pipeline.arrRef spec1 5) _ = V c (Pipeline.arrRef spec1 5) _
  congr 1
  funext a
  apply Fin.ext
  obtain ⟨-, -, -, -, -, -, -, -, -, -, e0, e1, -⟩ := idx t
  match a with
  | ⟨0, _⟩ => show win1_5.index t 0 * 1 + 1 * (y 0).val = (y 0).val; rw [e0]; omega
  | ⟨1, _⟩ => show win1_5.index t 1 * 1 + 1 * (y 1).val = (y 1).val; rw [e1]; omega

/-- THE OUTPUT ARRAY AS ONE FUNCTION of the arrays the call finds: the layer over all 100000 rows, with the bias read off
    the [1, 256] row and the slope off the [1, 1] array. -/
def G (c : Dev nD) : S100000x256.Idx → EReal :=
  layer 100000 (arrA V c) (arrX V c) (arrW V c) (arrW' V c) (fun q => arrB V c (ix2 0 q)) (arrS V c (ix2 0 0))

/-- Entry (p, q) of the output's block at point t is the array's entry (5000·t + p, q). -/
theorem emb_out (t : Fin cfg1.N) (p : Fin 5000) (q : Fin 256) (h : 5000 * t.val + p.val < 100000) :
    ((cfg1.win 6).blk t).view.emb (ix2 p q) = (ix2 ⟨5000 * t.val + p.val, h⟩ q : S100000x256.Idx) := by
  funext a
  apply Fin.ext
  obtain ⟨-, -, -, -, -, -, -, -, -, -, -, -, e0, e1⟩ := idx t
  match a with
  | ⟨0, _⟩ => show win1_6.index t 0 * 5000 + 1 * p.val = 5000 * t.val + p.val; rw [e0]; omega
  | ⟨1, _⟩ => show win1_6.index t 1 * 256 + 1 * q.val = q.val; rw [e1]; omega

/-- WHAT POINT t WRITES BACK is block t of the layer: the body's stored value at (p, q) is the cell of the staged
    blocks, and each staged block is the corresponding rows (or the whole) of its array. -/
theorem flushed (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz]
  simp only [View.ld_unit_zero (S := S5000x256) hz, View.ld_unit_zero (S := S256x256) hz,
    View.ld_unit_zero (S := S1x256) hz, View.ld_unit_zero (S := S1x1) hz]
  funext j
  obtain ⟨p, q, rfl⟩ : ∃ (p : Fin 5000) (q : Fin 256), j = ix2 p q := ⟨j 0, j 1, eq_ix2 j⟩
  have ht : t.val < 20 := lt_of_lt_of_eq t.isLt N_1
  have hp : 5000 * t.val + p.val < 100000 := by have := p.isLt; omega
  show k1_pay1 (F := Ideal) (iblk1 V c 0 t) (iblk1 V c 1 t) (iblk1 V c 2 t) (iblk1 V c 4 t) (iblk1 V c 3 t) (iblk1 V c 5 t) (ix2 p q)
      = G V c (((cfg1.win 6).blk t).view.emb (ix2 p q))
  rw [emb_out t p q hp]
  refine (Cert.KernelIdeal.Body.pay1_apply (iblk1 V c 0 t) (iblk1 V c 1 t) (iblk1 V c 2 t) (iblk1 V c 4 t) (iblk1 V c 3 t) (iblk1 V c 5 t) p q).trans ?_
  unfold G
  rw [layer_apply]
  have eA : (fun k : Fin 256 => (iblk1 V c 0 t : Vec Ideal S5000x256 .f32) (ix2 p k))
      = fun k => arrA V c (ix2 ⟨5000 * t.val + p.val, hp⟩ k) := funext fun k => blkA V c t (ix2 p k) _ rfl rfl
  have eX : (fun k : Fin 256 => (iblk1 V c 1 t : Vec Ideal S5000x256 .f32) (ix2 p k))
      = fun k => arrX V c (ix2 ⟨5000 * t.val + p.val, hp⟩ k) := funext fun k => blkX V c t (ix2 p k) _ rfl rfl
  rw [eA, eX, blkW V c t, blkW' V c t, blkB V c t, blkS V c t]

/-- An index of the output array is in point t's block iff each coordinate is in the block's range on its axis. -/
theorem mem_blk (t : Fin cfg1.N) (i : S100000x256.Idx) :
    i ∈ ((cfg1.win 6).blk t).view.set ↔ ∀ a : Fin 2, win1_6.index t a * S5000x256.size a ≤ (i a).val
      ∧ (i a).val < win1_6.index t a * S5000x256.size a + S5000x256.size a := by
  show i ∈ ((View.whole main_v29).slice (win1_6.rect t)).set ↔ _
  rw [View.set_slice_whole, Rect.mem_set_unit]
  exact Iff.rfl

/-- The 20 output blocks tile the array: row r lies in the block of point r / 5000. -/
theorem cover (i : S100000x256.Idx) :
    ∃ t : Fin cfg1.N, (cfg1.win 6).flush t = true ∧ i ∈ ((cfg1.win 6).blk t).view.set := by
  have h0 : (i 0).val < 100000 := (i 0).isLt
  have h1 : (i 1).val < 256 := (i 1).isLt
  have hN : (i 0).val / 5000 < cfg1.N := lt_of_lt_of_eq (by omega : (i 0).val / 5000 < 20) N_1.symm
  refine ⟨⟨(i 0).val / 5000, hN⟩, flush1_6 _, ?_⟩
  rw [mem_blk]
  obtain ⟨-, -, -, -, -, -, -, -, -, -, -, -, e0, e1⟩ := idx ⟨(i 0).val / 5000, hN⟩
  intro a
  match a with
  | ⟨0, _⟩ =>
    show win1_6.index ⟨(i 0).val / 5000, hN⟩ 0 * 5000 ≤ (i 0).val ∧ (i 0).val < win1_6.index ⟨(i 0).val / 5000, hN⟩ 0 * 5000 + 5000
    rw [e0]; show (i 0).val / 5000 * 5000 ≤ (i 0).val ∧ (i 0).val < (i 0).val / 5000 * 5000 + 5000; omega
  | ⟨1, _⟩ =>
    show win1_6.index ⟨(i 0).val / 5000, hN⟩ 1 * 256 ≤ (i 1).val ∧ (i 1).val < win1_6.index ⟨(i 0).val / 5000, hN⟩ 1 * 256 + 256
    rw [e1]; omega

/-- THE OUTPUT ARRAY after the second call is the layer of the arrays the call finds. -/
theorem final (c : Dev nD) : (dat1 V c).arrAt 6 cfg1.N = G V c :=
  (dat1 V c).arrAt_eq_of_cover 6 (G V c) (fun t _ => flushed V c t) cover

end Cert.KernelIdeal.Region1

end
-- ==== Proof.RefLayer.lean ====
/-
  The reference program, read as two layers between three gather/scatter stages.

  The reference gathers the rows of the node features named by the edges' sources, adds them into the rows named by
  the edges' targets (the neighbour aggregate), applies the dense layer (two matrix products, a bias, the rectifier),
  does the same once more on the layer's output, adds the rows into the 64 graph slots named by the batch vector, and
  applies the last linear map. The gather/scatter stages and the last map are kept as the host's own operations; the
  dense layer is shown, entry by entry, to be the layer of LayerCell.lean.
-/
import proofs.«103975_j10557029614296_1_alg».proof.Proof.Gen.ReferenceIdeal.Read
import proofs.«103975_j10557029614296_1_alg».proof.Proof.LayerCell

noncomputable section

namespace Cert.ReferenceIdeal.RefValue

open Cert.ReferenceIdeal Cert.ReferenceIdeal.Gen Cert.ReferenceIdeal.Read Cert.Spec
open Idealize.ShloMosaic Idealize.ShloMosaic.TcCoe Idealize.ShloMosaic.ValueIdx

/-- THE NEIGHBOUR AGGREGATE of a node array over the edge list: row e of the gather is the row of x named by edge e's
    source (negative indices wrapped by 100000), and the scatter adds row e into the row named by edge e's target,
    starting from zeros. Kept as the host's operations: both programs spell it the same way. -/
def aggr (x : FVec Ideal S100000x256 .f32) (e : IVec S2x320000 32) : FVec Ideal S100000x256 .f32 :=
  Host.scatterAdd scatter_S100000x256_S320000x1_S320000x256_1_0_0_1 (val_main_v11 (F := Ideal)) (val_main_v12 (F := Ideal) e)
    (Host.gather gather_S100000x256_S320000x1_S320000x256_1_0_n_n_0_1_1256 x (val_main_v9 (F := Ideal) e))

/-- The layer before its rectifier, as the host spells it: (A·W + b) + X·W', the bias [256] broadcast to the whole array. -/
def pre (A X : FVec Ideal S100000x256 .f32) (W : FVec Ideal S256x256 .f32) (b : FVec Ideal S256 .f32)
    (W' : FVec Ideal S256x256 .f32) : FVec Ideal S100000x256 .f32 :=
  addf (addf (val_main_v18 (F := Ideal) A W : FVec Ideal S100000x256 .f32) (val_main_v16 (F := Ideal) b : FVec Ideal S100000x256 .f32))
    (val_main_v18 (F := Ideal) X W' : FVec Ideal S100000x256 .f32)

/-- THE DENSE LAYER as the host spells it: o where o ≥ 0 and a·o elsewhere, o the layer before its rectifier, the slope
    [1] broadcast to the whole array. -/
def dense (A X : FVec Ideal S100000x256 .f32) (W : FVec Ideal S256x256 .f32) (b : FVec Ideal S256 .f32)
    (W' : FVec Ideal S256x256 .f32) (a : FVec Ideal S1 .f32) : FVec Ideal S100000x256 .f32 :=
  select (cmpf .oge (pre A X W b W') (val_main_v20 (F := Ideal) : FVec Ideal S100000x256 .f32)) (pre A X W b W')
    (mulf (val_main_v23 (F := Ideal) a : FVec Ideal S100000x256 .f32) (pre A X W b W'))

/-- THE POOLING AND THE LAST MAP: the rows of h added into the 64 slots named by the batch vector, from zeros, then
    multiplied by the [256, 1] matrix, the bias [1] added. Kept as the host's operations. -/
def pool (h : FVec Ideal S100000x256 .f32) (batch : IVec S100000 32) (Wp : FVec Ideal S256x1 .f32) (bp : FVec Ideal S1 .f32) :
    FVec Ideal S64x1 .f32 :=
  addf (Host.dotGeneral dot_S64x256_S256x1_S64x1_1_0_0_1_n_n none
      (Host.scatterAdd scatter_S64x256_S100000x1_S100000x256_1_0_0_1 (val_main_v48 (F := Ideal)) (val_main_v49 (F := Ideal) batch) h) Wp)
    (val_main_v53 (F := Ideal) bp)

/-- The host's dense layer at (p, q) is the layer's cell. -/
theorem dense_apply (A X : FVec Ideal S100000x256 .f32) (W : FVec Ideal S256x256 .f32) (b : FVec Ideal S256 .f32)
    (W' : FVec Ideal S256x256 .f32) (a : FVec Ideal S1 .f32) (p : Fin 100000) (q : Fin 256) :
    dense A X W b W' a (ix2 p q)
      = cell (fun k => A (ix2 p k)) (fun k => X (ix2 p k)) W W' q (b (ix1 q)) (a (ix1 0)) := by
  have el : ∀ k : Fin 256, lidx_main_v18 (ix2 p q) k = ix2 p k := fun k =>
    funext fun d => by match d with | ⟨0, _⟩ => rfl | ⟨1, _⟩ => rfl
  have er : ∀ k : Fin 256, ridx_main_v18 (ix2 p q) k = ix2 k q := fun k =>
    funext fun d => by match d with | ⟨0, _⟩ => rfl | ⟨1, _⟩ => rfl
  have eb : idx_main_v15 (idx_main_v16 (ix2 p q)) = ix1 q := funext fun d => by match d with | ⟨0, _⟩ => rfl
  have ea : idx_main_v22 (idx_main_v23 (ix2 p q)) = ix1 (0 : Fin 1) := funext fun d => by match d with | ⟨0, _⟩ => rfl
  unfold dense pre cell act
  simp only [select_apply, cmpf_apply, mulf_apply, addf_apply]
  rw [val_main_v18_apply, val_main_v18_apply, val_main_v16_apply, val_main_v15_apply, val_main_v23_apply,
    val_main_v22_apply, val_main_v20_apply, val_main_cst_1_apply, eb, ea]
  simp only [el, er]
  rfl

/-- The host's dense layer is the layer, as whole arrays. -/
theorem dense_eq_layer (A X : FVec Ideal S100000x256 .f32) (W : FVec Ideal S256x256 .f32) (b : FVec Ideal S256 .f32)
    (W' : FVec Ideal S256x256 .f32) (a : FVec Ideal S1 .f32) :
    dense A X W b W' a = layer 100000 A X W W' (fun q => b (ix1 q)) (a (ix1 0)) := by
  funext i
  obtain ⟨p, q, rfl⟩ : ∃ (p : Fin 100000) (q : Fin 256), i = ix2 p q := ⟨i 0, i 1, eq_ix2 i⟩
  rw [layer_apply]
  exact dense_apply A X W b W' a p q

set_option maxRecDepth 16384 in
/-- THE REFERENCE'S RESULT: the pooled last map of the second layer of the aggregate of the first layer. -/
theorem result_eq (m : (ℓ : Loc nD τ sig) → Buf (Elt Ideal) ℓ) (c : Dev nD) :
    Cert.ReferenceIdeal.Value.res_main_v54 m c
      = pool (dense (aggr (dense (aggr (m ((c.tc : Thread nD τ).loc main_arg0)) (m ((c.tc : Thread nD τ).loc main_arg1)))
              (m ((c.tc : Thread nD τ).loc main_arg0)) (m ((c.tc : Thread nD τ).loc main_arg3)) (m ((c.tc : Thread nD τ).loc main_arg4))
              (m ((c.tc : Thread nD τ).loc main_arg5)) (m ((c.tc : Thread nD τ).loc main_arg6))) (m ((c.tc : Thread nD τ).loc main_arg1)))
            (dense (aggr (m ((c.tc : Thread nD τ).loc main_arg0)) (m ((c.tc : Thread nD τ).loc main_arg1)))
              (m ((c.tc : Thread nD τ).loc main_arg0)) (m ((c.tc : Thread nD τ).loc main_arg3)) (m ((c.tc : Thread nD τ).loc main_arg4))
              (m ((c.tc : Thread nD τ).loc main_arg5)) (m ((c.tc : Thread nD τ).loc main_arg6)))
            (m ((c.tc : Thread nD τ).loc main_arg7)) (m ((c.tc : Thread nD τ).loc main_arg8))
            (m ((c.tc : Thread nD τ).loc main_arg9)) (m ((c.tc : Thread nD τ).loc main_arg10)))
          (m ((c.tc : Thread nD τ).loc main_arg2)) (m ((c.tc : Thread nD τ).loc main_arg11)) (m ((c.tc : Thread nD τ).loc main_arg12)) := by
  rw [val_main_v54_eq]
  rfl

end Cert.ReferenceIdeal.RefValue

end
-- ==== Proof.KernelValue.lean ====
/-
  The idealized kernel's result as a function of its arguments.

  Following the buffers through @main: the first stretch of host operations forms the neighbour aggregate of the node
  features and re-lays the bias [256] as a row [1, 256] and the slope [1] as [1, 1]; the first call leaves the dense
  layer of these in its output array; the second stretch forms the aggregate of that array and re-lays the second
  bias and slope; the second call leaves the second layer; the last stretch pools its rows into the 64 slots and
  applies the last linear map. The gather/scatter stages and the last map are the host's own operations, spelt
  as the reference spells them, so the result is the same composition the reference computes.
-/
import proofs.«103975_j10557029614296_1_alg».proof.Proof.Gen.KernelIdeal.Frame
import proofs.«103975_j10557029614296_1_alg».proof.Proof.Region0
import proofs.«103975_j10557029614296_1_alg».proof.Proof.Region1
import proofs.«103975_j10557029614296_1_alg».proof.Proof.RefLayer
import proofs.«103975_j10557029614296_1_alg».proof.Proof.LibRowLayout
import Idealize.ShloMosaic.Lib.StableHlo.Run
import Idealize.ShloMosaic.Lib.Pipeline.Value

set_option maxRecDepth 16384

noncomputable section

namespace Cert.KernelIdeal.Whole

open Cert.KernelIdeal Cert.KernelIdeal.Gen Cert.Spec
open Idealize.ShloMosaic Idealize.ShloMosaic.TcCoe Idealize.ShloMosaic.ValueIdx Idealize.SL.Sem Idealize.ShloMosaic.StableHlo
open Cert.ReferenceIdeal.RefValue (aggr dense pool)

variable (m : (ℓ : Loc nD τ sig) → Buf (Elt Ideal) ℓ) (ρ : Dev nD → PrngReg) (c : Dev nD)

/-- An argument's launch contents on core c. -/
abbrev arg (b : Ref sig .tc) : Buf (Elt Ideal) ((c : Thread nD τ).loc b) := m ((c : Thread nD τ).loc b)

/-- The first layer's output: the dense layer of the aggregate of the features. -/
def h1 : S100000x256.Idx → EReal :=
  dense (aggr (arg m c main_arg0) (arg m c main_arg1)) (arg m c main_arg0) (arg m c main_arg3) (arg m c main_arg4)
    (arg m c main_arg5) (arg m c main_arg6)

/-- The second layer's output: the dense layer of the aggregate of the first layer's output. -/
def h2 : S100000x256.Idx → EReal :=
  dense (aggr (h1 m c) (arg m c main_arg1)) (h1 m c) (arg m c main_arg7) (arg m c main_arg8)
    (arg m c main_arg9) (arg m c main_arg10)

/-- A vector [256] re-laid as a row [1, 256], read at (0, q). -/
theorem row_cast (b : S256.Idx → EReal) (h : S256.ShapeCasts S1x256) (q : Fin 256) :
    shapeCast S1x256 b h (ix2 0 q) = b (ix1 q) :=
  Cert.Lib.vecToRow_apply b h q

/-- A vector [1] re-laid as [1, 1], read at (0, 0). -/
theorem one_cast (a : S1.Idx → EReal) (h : S1.ShapeCasts S1x1) :
    shapeCast S1x1 a h (ix2 0 0) = a (ix1 0) :=
  Cert.Lib.vecToRow_apply a h 0

/-! ## What the first call finds -/

theorem entry0_A : (V1 m ρ c main_v13 : S100000x256.Idx → EReal) = aggr (arg m c main_arg0) (arg m c main_arg1) := by
  show StableHlo.after hostOps0 (W0 m ρ c) (Proc.devRef .tc main_v13) = _
  after_results
  rfl
theorem entry0_X : (V1 m ρ c main_arg0 : S100000x256.Idx → EReal) = arg m c main_arg0 := by
  show StableHlo.after hostOps0 (W0 m ρ c) (Proc.devRef .tc main_arg0) = _
  after_results
theorem entry0_W : (V1 m ρ c main_arg3 : S256x256.Idx → EReal) = arg m c main_arg3 := by
  show StableHlo.after hostOps0 (W0 m ρ c) (Proc.devRef .tc main_arg3) = _
  after_results
theorem entry0_W' : (V1 m ρ c main_arg5 : S256x256.Idx → EReal) = arg m c main_arg5 := by
  show StableHlo.after hostOps0 (W0 m ρ c) (Proc.devRef .tc main_arg5) = _
  after_results
theorem entry0_B : (V1 m ρ c main_v14 : S1x256.Idx → EReal) = shapeCast S1x256 (arg m c main_arg4) shapeCasts_S256_S1x256 := by
  show StableHlo.after hostOps0 (W0 m ρ c) (Proc.devRef .tc main_v14) = _
  after_results
  rfl
theorem entry0_S : (V1 m ρ c main_v15 : S1x1.Idx → EReal) = shapeCast S1x1 (arg m c main_arg6) shapeCasts_S1_S1x1 := by
  show StableHlo.after hostOps0 (W0 m ρ c) (Proc.devRef .tc main_v15) = _
  after_results
  rfl

/-- THE FIRST CALL'S OUTPUT ARRAY is the first layer. -/
theorem out0 : W2 m ρ c (Proc.devRef .tc main_v16) = h1 m c := by
  refine (W2_arr m ρ c 6).trans ((Region0.final (V1 m ρ) c).trans ?_)
  unfold h1
  rw [Cert.ReferenceIdeal.RefValue.dense_eq_layer]
  unfold Region0.G
  have eB : (fun q : Fin 256 => Region0.arrB (V1 m ρ) c (ix2 0 q)) = fun q => (arg m c main_arg4 : S256.Idx → EReal) (ix1 q) :=
    funext fun q => (congrFun (entry0_B m ρ c) (ix2 0 q)).trans (row_cast _ _ q)
  have eS : Region0.arrS (V1 m ρ) c (ix2 0 0) = (arg m c main_arg6 : S1.Idx → EReal) (ix1 0) :=
    (congrFun (entry0_S m ρ c) (ix2 0 0)).trans (one_cast _ _)
  rw [eB, eS, show Region0.arrA (V1 m ρ) c = _ from entry0_A m ρ c, show Region0.arrX (V1 m ρ) c = _ from entry0_X m ρ c,
    show Region0.arrW (V1 m ρ) c = _ from entry0_W m ρ c, show Region0.arrW' (V1 m ρ) c = _ from entry0_W' m ρ c]

/-! ## Between the calls: the first call writes only its output array -/

/-- The edges' sources, a row of the edge list re-laid as a vector, as the first stretch left them. -/
theorem src_rows : W2 m ρ c (Proc.devRef .tc main_v1) = Cert.ReferenceIdeal.Read.val_main_v1 (F := Ideal) (arg m c main_arg1) := by
  refine (W2_of_ne m ρ c main_v1 (by decide)).trans ?_
  show StableHlo.after hostOps0 (W0 m ρ c) (Proc.devRef .tc main_v1) = _
  after_results
  rfl
/-- The edges' targets, likewise. -/
theorem dst_rows : W2 m ρ c (Proc.devRef .tc main_v3) = Cert.ReferenceIdeal.Read.val_main_v3 (F := Ideal) (arg m c main_arg1) := by
  refine (W2_of_ne m ρ c main_v3 (by decide)).trans ?_
  show StableHlo.after hostOps0 (W0 m ρ c) (Proc.devRef .tc main_v3) = _
  after_results
  rfl
theorem mid_arg7 : W2 m ρ c (Proc.devRef .tc main_arg7) = arg m c main_arg7 := by
  refine (W2_of_ne m ρ c main_arg7 (by decide)).trans ?_
  show StableHlo.after hostOps0 (W0 m ρ c) (Proc.devRef .tc main_arg7) = _
  after_results
theorem mid_arg8 : W2 m ρ c (Proc.devRef .tc main_arg8) = arg m c main_arg8 := by
  refine (W2_of_ne m ρ c main_arg8 (by decide)).trans ?_
  show StableHlo.after hostOps0 (W0 m ρ c) (Proc.devRef .tc main_arg8) = _
  after_results
theorem mid_arg9 : W2 m ρ c (Proc.devRef .tc main_arg9) = arg m c main_arg9 := by
  refine (W2_of_ne m ρ c main_arg9 (by decide)).trans ?_
  show StableHlo.after hostOps0 (W0 m ρ c) (Proc.devRef .tc main_arg9) = _
  after_results
theorem mid_arg10 : W2 m ρ c (Proc.devRef .tc main_arg10) = arg m c main_arg10 := by
  refine (W2_of_ne m ρ c main_arg10 (by decide)).trans ?_
  show StableHlo.after hostOps0 (W0 m ρ c) (Proc.devRef .tc main_arg10) = _
  after_results
theorem mid_arg2 : W2 m ρ c (Proc.devRef .tc main_arg2) = arg m c main_arg2 := by
  refine (W2_of_ne m ρ c main_arg2 (by decide)).trans ?_
  show StableHlo.after hostOps0 (W0 m ρ c) (Proc.devRef .tc main_arg2) = _
  after_results
theorem mid_arg11 : W2 m ρ c (Proc.devRef .tc main_arg11) = arg m c main_arg11 := by
  refine (W2_of_ne m ρ c main_arg11 (by decide)).trans ?_
  show StableHlo.after hostOps0 (W0 m ρ c) (Proc.devRef .tc main_arg11) = _
  after_results
theorem mid_arg12 : W2 m ρ c (Proc.devRef .tc main_arg12) = arg m c main_arg12 := by
  refine (W2_of_ne m ρ c main_arg12 (by decide)).trans ?_
  show StableHlo.after hostOps0 (W0 m ρ c) (Proc.devRef .tc main_arg12) = _
  after_results

/-! ## What the second call finds -/

theorem entry1_A : (V3 m ρ c main_v26 : S100000x256.Idx → EReal) = aggr (h1 m c) (arg m c main_arg1) := by
  show StableHlo.after hostOps1 (W2 m ρ c) (Proc.devRef .tc main_v26) = _
  after_results
  rw [out0 m ρ c, src_rows m ρ c, dst_rows m ρ c]
  rfl
theorem entry1_X : (V3 m ρ c main_v16 : S100000x256.Idx → EReal) = h1 m c := by
  show StableHlo.after hostOps1 (W2 m ρ c) (Proc.devRef .tc main_v16) = _
  after_results
  exact out0 m ρ c
theorem entry1_W : (V3 m ρ c main_arg7 : S256x256.Idx → EReal) = arg m c main_arg7 := by
  show StableHlo.after hostOps1 (W2 m ρ c) (Proc.devRef .tc main_arg7) = _
  after_results
  exact mid_arg7 m ρ c
theorem entry1_W' : (V3 m ρ c main_arg9 : S256x256.Idx → EReal) = arg m c main_arg9 := by
  show StableHlo.after hostOps1 (W2 m ρ c) (Proc.devRef .tc main_arg9) = _
  after_results
  exact mid_arg9 m ρ c
theorem entry1_B : (V3 m ρ c main_v27 : S1x256.Idx → EReal) = shapeCast S1x256 (arg m c main_arg8) shapeCasts_S256_S1x256 := by
  show StableHlo.after hostOps1 (W2 m ρ c) (Proc.devRef .tc main_v27) = _
  after_results
  rw [mid_arg8 m ρ c]
  rfl
theorem entry1_S : (V3 m ρ c main_v28 : S1x1.Idx → EReal) = shapeCast S1x1 (arg m c main_arg10) shapeCasts_S1_S1x1 := by
  show StableHlo.after hostOps1 (W2 m ρ c) (Proc.devRef .tc main_v28) = _
  after_results
  rw [mid_arg10 m ρ c]
  rfl

/-- THE SECOND CALL'S OUTPUT ARRAY is the second layer. -/
theorem out1 : W4 m ρ c (Proc.devRef .tc main_v29) = h2 m c := by
  refine (W4_arr m ρ c 6).trans ((Region1.final (V3 m ρ) c).trans ?_)
  unfold h2
  rw [Cert.ReferenceIdeal.RefValue.dense_eq_layer]
  unfold Region1.G
  have eB : (fun q : Fin 256 => Region1.arrB (V3 m ρ) c (ix2 0 q)) = fun q => (arg m c main_arg8 : S256.Idx → EReal) (ix1 q) :=
    funext fun q => (congrFun (entry1_B m ρ c) (ix2 0 q)).trans (row_cast _ _ q)
  have eS : Region1.arrS (V3 m ρ) c (ix2 0 0) = (arg m c main_arg10 : S1.Idx → EReal) (ix1 0) :=
    (congrFun (entry1_S m ρ c) (ix2 0 0)).trans (one_cast _ _)
  rw [eB, eS, show Region1.arrA (V3 m ρ) c = _ from entry1_A m ρ c, show Region1.arrX (V3 m ρ) c = _ from entry1_X m ρ c,
    show Region1.arrW (V3 m ρ) c = _ from entry1_W m ρ c, show Region1.arrW' (V3 m ρ) c = _ from entry1_W' m ρ c]

/-! ## After the second call: it writes only its output array -/

theorem late_arg2 : W4 m ρ c (Proc.devRef .tc main_arg2) = arg m c main_arg2 := by
  refine (W4_of_ne m ρ c main_arg2 (by decide)).trans ?_
  show StableHlo.after hostOps1 (W2 m ρ c) (Proc.devRef .tc main_arg2) = _
  after_results
  exact mid_arg2 m ρ c
theorem late_arg11 : W4 m ρ c (Proc.devRef .tc main_arg11) = arg m c main_arg11 := by
  refine (W4_of_ne m ρ c main_arg11 (by decide)).trans ?_
  show StableHlo.after hostOps1 (W2 m ρ c) (Proc.devRef .tc main_arg11) = _
  after_results
  exact mid_arg11 m ρ c
theorem late_arg12 : W4 m ρ c (Proc.devRef .tc main_arg12) = arg m c main_arg12 := by
  refine (W4_of_ne m ρ c main_arg12 (by decide)).trans ?_
  show StableHlo.after hostOps1 (W2 m ρ c) (Proc.devRef .tc main_arg12) = _
  after_results
  exact mid_arg12 m ρ c

/-- THE KERNEL'S RESULT: the second layer's rows pooled into the 64 slots, then the last linear map. -/
theorem result : W5 m ρ c (Proc.devRef .tc main_v36)
    = pool (h2 m c) (arg m c main_arg2) (arg m c main_arg11) (arg m c main_arg12) := by
  show StableHlo.after hostOps2 (W4 m ρ c) (Proc.devRef .tc main_v36) = _
  after_results
  rw [out1 m ρ c, late_arg2 m ρ c, late_arg11 m ρ c, late_arg12 m ρ c]
  rfl

end Cert.KernelIdeal.Whole

end
-- ==== Proof.lean ====
/-
  Two graph-convolution layers with parametric rectifiers, a sum pooling and a last linear map: the kernel program
  against its reference, over the extended reals.

  Both programs compute, for node features x, an edge list (sources and targets), a batch vector and the layers'
  parameters,

      h₁ = act_a₁ ((agg x · Wrel₁ + brel₁) + x · Wroot₁),     h₂ = act_a₂ ((agg h₁ · Wrel₂ + brel₂) + h₁ · Wroot₂),
      out = pooled h₂ · Wpost + bpost,

  where agg y adds, for every edge, the row of y at the edge's source into the row at its target, act_a o is o where
  o ≥ 0 and a · o elsewhere, and pooling adds the rows of h₂ into the 64 slots the batch vector names. The reference
  does all of it with host operations. The kernel program does the gather/scatter stages and the last map with the
  same host operations, and the two dense layers in two calls of one kernel, 20 blocks of 5000 rows each, whose
  body rounds its matrix operands to bf16 (the identity on extended reals) and multiplies into a zero accumulator.

  The dense layer is one function of its six operands, entry by entry (LayerCell.lean); the kernel body's stored
  block is that function of the staged blocks (KernelCell.lean), each call's output array the layer of the arrays the
  call finds (Region0.lean, Region1.lean), and the host's spelling of the layer the same function (RefLayer.lean).
  With the dense layers identified the two results are the same composition of the same host operations
  (KernelValue.lean). The sums are taken in the same association on both sides, so no law of the extended reals that
  needs finite operands is used, and the precondition is not opened.

  The ideal pass rewrote nothing in the kernel, so the idealization claim is trivial; the kernels' frames are the
  generated ones, and the reference's frame is its generated run with the result dropped.
-/
import proofs.«103975_j10557029614296_1_alg».proof.Defs
import proofs.«103975_j10557029614296_1_alg».proof.Proof.Gen.Kernel
import proofs.«103975_j10557029614296_1_alg».proof.Proof.Gen.Kernel.Skeleton
import proofs.«103975_j10557029614296_1_alg».proof.Proof.Gen.Kernel.Launch
import proofs.«103975_j10557029614296_1_alg».proof.Proof.Gen.Kernel.Points
import proofs.«103975_j10557029614296_1_alg».proof.Proof.Gen.Kernel.Frame
import proofs.«103975_j10557029614296_1_alg».proof.Proof.Gen.KernelIdeal
import proofs.«103975_j10557029614296_1_alg».proof.Proof.Gen.KernelIdeal.Skeleton
import proofs.«103975_j10557029614296_1_alg».proof.Proof.Gen.KernelIdeal.Launch
import proofs.«103975_j10557029614296_1_alg».proof.Proof.Gen.KernelIdeal.Points
import proofs.«103975_j10557029614296_1_alg».proof.Proof.Gen.KernelIdeal.Frame
import proofs.«103975_j10557029614296_1_alg».proof.Proof.Gen.ReferenceIdeal
import proofs.«103975_j10557029614296_1_alg».proof.Proof.Gen.Pre_finite_inputs
import proofs.«103975_j10557029614296_1_alg».proof.Proof.Gen.ReferenceIdeal.Run
import proofs.«103975_j10557029614296_1_alg».proof.Proof.Gen.ReferenceIdeal.Read
import proofs.«103975_j10557029614296_1_alg».proof.Proof.KernelRun
import proofs.«103975_j10557029614296_1_alg».proof.Proof.KernelValue
import proofs.«103975_j10557029614296_1_alg».proof.Proof.RefLayer
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- From memories agreeing on the arguments both programs end with the pooled last map of the second layer: the
    kernel program by its run read through its two calls, the reference by its run read as two layers; the
    arguments' agreement then makes the two terms one. -/
theorem algebraic : Cert.algebraic_KernelIdeal_ReferenceIdeal := by
  intro m ρ m' ρ' _ hagree
  refine ⟨fun c => Cert.ReferenceIdeal.RefValue.pool (Cert.KernelIdeal.Whole.h2 m c) (m ((c.tc : Thread Cert.KernelIdeal.nD Cert.KernelIdeal.τ).loc Cert.KernelIdeal.main_arg2))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Whole.result m ρ c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.result_eq]
    obtain ⟨a0, a1, a2, a3, a4, a5, a6, a7, a8, a9, a10, a11, a12⟩ := hagree c
    rw [a0, a1, a2, a3, a4, a5, a6, a7, a8, a9, a10, a11, a12]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
